-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_cst_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_cst_9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_cst_9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x500000 : Shape := ⟨2, ![2, 500000]⟩
abbrev S500000 : Shape := ⟨1, ![500000]⟩
abbrev S8192x128 : Shape := ⟨2, ![8192, 128]⟩
abbrev S4096x128 : Shape := ⟨2, ![4096, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : IVec S2x500000 32) (main_arg1 : FVec F S500000 .f32) (main_arg2 : FVec F S8192x128 .f32) (main_arg3 : FVec F S4096x128 .f32) : IVec S_ 1 :=
  let main_v0 : FVec F S500000 .f32 := Host.absf main_arg1
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S2x500000 : Shape := ⟨2, ![2, 500000]⟩
abbrev S500000 : Shape := ⟨1, ![500000]⟩
abbrev S8192x128 : Shape := ⟨2, ![8192, 128]⟩
abbrev S4096x128 : Shape := ⟨2, ![4096, 128]⟩
abbrev S1x500000 : Shape := ⟨2, ![1, 500000]⟩
abbrev S_ : Shape := ⟨0, ![]⟩
abbrev S8192x4096 : Shape := ⟨2, ![8192, 4096]⟩
abbrev S500000x1 : Shape := ⟨2, ![500000, 1]⟩
abbrev S500000x2 : Shape := ⟨2, ![500000, 2]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 52
  | .vmem => 8
  | .smem => 0
  | _ => 0

abbrev bufTy : (tb : Table) → Fin (tcTables nBuf tb) → BufTy
  | .hbm, ⟨0, _⟩ => ⟨S2x500000, .i32⟩
  | .hbm, ⟨1, _⟩ => ⟨S500000, .f32⟩
  | .hbm, ⟨2, _⟩ => ⟨S8192x128, .f32⟩
  | .hbm, ⟨3, _⟩ => ⟨S4096x128, .f32⟩
  | .hbm, ⟨4, _⟩ => ⟨S1x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S_, .f32⟩
  | .hbm, ⟨9, _⟩ => ⟨S8192x4096, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x1, .i32⟩
  | .hbm, ⟨26, _⟩ => ⟨S500000x2, .i32⟩
  | .hbm, ⟨27, _⟩ => ⟨S_, .f32⟩
  | .hbm, ⟨28, _⟩ => ⟨S500000, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x1, .i32⟩
  | .hbm, ⟨48, _⟩ => ⟨S500000x2, .i32⟩
  | .hbm, ⟨49, _⟩ => ⟨S8192x4096, .f32⟩
  | .hbm, ⟨50, _⟩ => ⟨S8192x4096, .f32⟩
  | .hbm, ⟨51, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2x500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S8192x4096 : S_.BroadcastsInDim S8192x4096 (![] : Fin 0 → Fin S8192x4096.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S8192x4096_S500000x2_S500000_n_01_01_1_wf : ScatterDims.WF S8192x4096 S500000x2 S500000 [] [0, 1] [0, 1] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S8192x4096_S500000x2_S500000_n_01_01_1 : ScatterDims S8192x4096 S500000x2 S500000 where
  updateWindowDims := []
  insertedWindowDims := [0, 1]
  scatterDimsToOperandDims := [0, 1]
  indexVectorDim := 1
  wf := scatter_S8192x4096_S500000x2_S500000_n_01_01_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x500000 : Shape := ⟨2, ![2, 500000]⟩
abbrev S500000 : Shape := ⟨1, ![500000]⟩
abbrev S8192x128 : Shape := ⟨2, ![8192, 128]⟩
abbrev S4096x128 : Shape := ⟨2, ![4096, 128]⟩
abbrev S128x4096 : Shape := ⟨2, ![128, 4096]⟩
abbrev S8192x4096 : Shape := ⟨2, ![8192, 4096]⟩
abbrev S1x500000 : Shape := ⟨2, ![1, 500000]⟩
abbrev S_ : Shape := ⟨0, ![]⟩
abbrev S500000x1 : Shape := ⟨2, ![500000, 1]⟩
abbrev S500000x2 : Shape := ⟨2, ![500000, 2]⟩

abbrev nBuf : Space → Nat
  | .hbm => 54
  | .vmem => 0
  | .smem => 0
  | _ => 0

abbrev bufTy : (tb : Table) → Fin (tcTables nBuf tb) → BufTy
  | .hbm, ⟨0, _⟩ => ⟨S2x500000, .i32⟩
  | .hbm, ⟨1, _⟩ => ⟨S500000, .f32⟩
  | .hbm, ⟨2, _⟩ => ⟨S8192x128, .f32⟩
  | .hbm, ⟨3, _⟩ => ⟨S4096x128, .f32⟩
  | .hbm, ⟨4, _⟩ => ⟨S128x4096, .f32⟩
  | .hbm, ⟨5, _⟩ => ⟨S8192x4096, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S8192x4096, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x1, .i32⟩
  | .hbm, ⟨28, _⟩ => ⟨S500000x2, .i32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x1, .i32⟩
  | .hbm, ⟨48, _⟩ => ⟨S500000x2, .i32⟩
  | .hbm, ⟨49, _⟩ => ⟨S_, .f32⟩
  | .hbm, ⟨50, _⟩ => ⟨S500000, .f32⟩
  | .hbm, ⟨51, _⟩ => ⟨S8192x4096, .f32⟩
  | .hbm, ⟨52, _⟩ => ⟨S8192x4096, .f32⟩
  | .hbm, ⟨53, _⟩ => ⟨S_, .f32⟩
  | _, _ => ⟨S2x500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩

abbrev nD : Nat := 1
abbrev τ : Topo := Topo.v7x

variable {F : FTy → Type} [FloatOps F]

class Facts₀ : Prop where
  transposes_S4096x128_S128x4096_1_0 : S4096x128.Transposes [1, 0] S128x4096
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S8192x4096 : S_.BroadcastsInDim S8192x4096 (![] : Fin 0 → Fin S8192x4096.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  dot_S8192x128_S128x4096_S8192x4096_1_0_0_1_n_n_wf : DotDims.WF S8192x128 S128x4096 S8192x4096 [1] [0] [0] [1] [] []
  scatter_S8192x4096_S500000x2_S500000_n_01_01_1_wf : ScatterDims.WF S8192x4096 S500000x2 S500000 [] [0, 1] [0, 1] 1

variable [Facts₀]

def dot_S8192x128_S128x4096_S8192x4096_1_0_0_1_n_n : DotDims S8192x128 S128x4096 S8192x4096 where
  lhsContracting := [1]
  rhsContracting := [0]
  lhsNonContracting := [0]
  rhsNonContracting := [1]
  lhsBatch := []
  rhsBatch := []
  wf := dot_S8192x128_S128x4096_S8192x4096_1_0_0_1_n_n_wf
def scatter_S8192x4096_S500000x2_S500000_n_01_01_1 : ScatterDims S8192x4096 S500000x2 S500000 where
  updateWindowDims := []
  insertedWindowDims := [0, 1]
  scatterDimsToOperandDims := [0, 1]
  indexVectorDim := 1
  wf := scatter_S8192x4096_S500000x2_S500000_n_01_01_1_wf

class Facts : Prop extends Facts₀ where

variable [Facts]
-- ==== Proof.BlockBody.lean ====
/-
  What the kernel body stores for one grid point, entry by entry: from a row block `x0` (1024 × 128), a column block
  `x1` (1024 × 128) and a weight block `x2` (1024 × 1024) the body's one store holds
      (∑ k < 128, x0[p, k] · x1[q, k]) · x2[p, q]      at (p, q).
  The rounding to bf16 is the identity on the extended reals, the transposition swaps the two coordinates of `x1`, the
  matrix unit's product into a zero accumulator is the plain sum over the contracted axis, and the cast of the weight block
  to its own shape is the identity.
-/
import proofs.«142145_j89902255440462_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The transposed column block at `(k, q)` is the block at `(q, k)`. -/
theorem transposed_apply (x1 : FVec Ideal S1024x128 .bf16) (k : Fin 128) (q : Fin 1024) :
    transpose S128x1024 [1, 0] x1 Facts₀.transposes_S1024x128_p1_0_S128x1024 (ix2 k q) = x1 (ix2 q k) :=
  transpose_apply [1, 0] x1 Facts₀.transposes_S1024x128_p1_0_S128x1024 (ix2 k q) (ix2 q k) (fun b => match b with
    | ⟨0, _⟩ => rfl
    | ⟨1, _⟩ => rfl)

/-- The matrix unit's left operand index at output `(p, ·)` and contraction index `k` is `(p, k)`: coordinate by
    coordinate. -/
theorem lhs_row (i : S1024x1024.Idx) (r : (dot_S1024x128_S128x1024_S1024x1024_1_0_0_1_n_n).contr.Idx) :
    ((dot_S1024x128_S128x1024_S1024x1024_1_0_0_1_n_n).lhsIdx i r 0).val = (i 0).val := by
  unfold DotDims.lhsIdx
  rw [dif_neg (show ¬(0 : Fin S1024x128.rank) ∈ (dot_S1024x128_S128x1024_S1024x1024_1_0_0_1_n_n).lhsBatch by decide),
    dif_pos (show (0 : Fin S1024x128.rank) ∈ (dot_S1024x128_S128x1024_S1024x1024_1_0_0_1_n_n).lhsNonContracting by decide)]
  rfl
theorem lhs_contr (i : S1024x1024.Idx) (r : (dot_S1024x128_S128x1024_S1024x1024_1_0_0_1_n_n).contr.Idx) :
    ((dot_S1024x128_S128x1024_S1024x1024_1_0_0_1_n_n).lhsIdx i r 1).val = (r ⟨0, by decide⟩).val :=
  (dot_S1024x128_S128x1024_S1024x1024_1_0_0_1_n_n).lhsIdx_val_of_single rfl i r
/-- The right operand index is `(k, q)`. -/
theorem rhs_contr (i : S1024x1024.Idx) (r : (dot_S1024x128_S128x1024_S1024x1024_1_0_0_1_n_n).contr.Idx) :
    ((dot_S1024x128_S128x1024_S1024x1024_1_0_0_1_n_n).rhsIdx i r 0).val = (r ⟨0, by decide⟩).val :=
  (dot_S1024x128_S128x1024_S1024x1024_1_0_0_1_n_n).rhsIdx_val_of_single rfl i r
theorem rhs_col (i : S1024x1024.Idx) (r : (dot_S1024x128_S128x1024_S1024x1024_1_0_0_1_n_n).contr.Idx) :
    ((dot_S1024x128_S128x1024_S1024x1024_1_0_0_1_n_n).rhsIdx i r 1).val = (i 1).val := by
  unfold DotDims.rhsIdx
  rw [dif_neg (show ¬(1 : Fin S128x1024.rank) ∈ (dot_S1024x128_S128x1024_S1024x1024_1_0_0_1_n_n).rhsBatch by decide),
    dif_pos (show (1 : Fin S128x1024.rank) ∈ (dot_S1024x128_S128x1024_S1024x1024_1_0_0_1_n_n).rhsNonContracting by decide)]
  rfl

/-- The body's stored value at `(p, q)`. -/
theorem stored_apply (x0 x1 : Vec Ideal S1024x128 .f32) (x2 : Vec Ideal S1024x1024 .f32) (p q : Fin 1024) :
    k0_pay1 (F := Ideal) x0 x1 x2 (ix2 p q) = (∑ k : Fin 128, x0 (ix2 p k) * x1 (ix2 q k)) * x2 (ix2 p q) := by
  unfold k0_pay1
  dsimp only
  rw [mulf_apply, shapeCast_self]
  refine congrArg (· * x2 (ix2 p q)) ?_
  refine (Ideal.matmul_constant_zero_apply _ none _ _ _).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun a => Fin.ext (by
      match a with
      | ⟨0, _⟩ => exact lhs_row _ _
      | ⟨1, _⟩ => exact (lhs_contr _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun a => Fin.ext (by
      match a with
      | ⟨0, _⟩ => exact (rhs_contr _ _).trans hk
      | ⟨1, _⟩ => exact rhs_col _ _)
  rw [el, er, transposed_apply]
  rfl

end Cert.KernelIdeal.Hand

end
-- ==== Proof.MaskedProduct.lean ====
/-
  The value both programs compute for their first result, as ONE function of three arrays: for a row block
  `u` (8192 × 128), a column block `v` (4096 × 128) and a weight array `w` (8192 × 4096),
      entry (p, q) = (∑ k < 128, u[p, k] · v[q, k]) · w[p, q]
  on the extended reals: the matrix product `u · vᵀ` weighted entry by entry. No program is imported here.
-/
import Idealize.ShloMosaic.PureOps.Ideal
import Idealize.ShloMosaic.Lib.ValueIdx

noncomputable section

namespace Cert.MaskedProduct

open Idealize.ShloMosaic Idealize.ShloMosaic.ValueIdx

/-- Entry `(p, q)` of the weighted product: the inner product of row `p` of `u` with row `q` of `v`, times
    `w[p, q]`. -/
def entry (u : (⟨2, ![8192, 128]⟩ : Shape).Idx → EReal) (v : (⟨2, ![4096, 128]⟩ : Shape).Idx → EReal)
    (w : (⟨2, ![8192, 4096]⟩ : Shape).Idx → EReal) (p : Fin 8192) (q : Fin 4096) : EReal :=
  (∑ k : Fin 128, u (ix2 p k) * v (ix2 q k)) * w (ix2 p q)

/-- The weighted product as an array: entry `(i 0, i 1)` at index `i`. -/
def weighted (u : (⟨2, ![8192, 128]⟩ : Shape).Idx → EReal) (v : (⟨2, ![4096, 128]⟩ : Shape).Idx → EReal)
    (w : (⟨2, ![8192, 4096]⟩ : Shape).Idx → EReal) : (⟨2, ![8192, 4096]⟩ : Shape).Idx → EReal :=
  fun i => entry u v w (i 0) (i 1)

theorem weighted_ix2 (u : (⟨2, ![8192, 128]⟩ : Shape).Idx → EReal) (v : (⟨2, ![4096, 128]⟩ : Shape).Idx → EReal)
    (w : (⟨2, ![8192, 4096]⟩ : Shape).Idx → EReal) (p : Fin 8192) (q : Fin 4096) :
    weighted u v w (ix2 p q) = entry u v w p q := rfl

end Cert.MaskedProduct

end
-- ==== Proof.Blocks.lean ====
/-
  From the kernel's blocks to its result array. At grid point `t = (a, b)` (8 × 4 points) the pipeline hands the body rows
  `1024·a …` of the first argument, rows `1024·b …` of the second and block `(a, b)` of the weight array, and writes
  back block `(a, b)` of the result. The body's store at `(p, q)` of that block is therefore entry
  `(1024·a + p, 1024·b + q)` of the weighted product of the WHOLE arrays; the 32 blocks tile the 8192 × 4096 result, so
  after the run the result array is the weighted product, index by index.
-/
import proofs.«142145_j89902255440462_1_alg».proof.Proof.Gen.KernelIdeal.Frame
import proofs.«142145_j89902255440462_1_alg».proof.Proof.BlockBody
import proofs.«142145_j89902255440462_1_alg».proof.Proof.MaskedProduct
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.MaskedProduct

variable (m : (ℓ : Loc nD τ sig) → Buf (Elt Ideal) ℓ) (ρ : Dev nD → PrngReg)

theorem zero_offsets : (![0, 0] : Fin 2 → Nat) = fun _ => 0 := funext fun a => by fin_cases a <;> rfl

/-- The body's one store covers the whole output buffer, and its loads read the whole input buffers: what the buffer
    holds after the body is the stored value of the three input blocks. -/
theorem out_eq (x0 x1 : Vec Ideal S1024x128 .f32) (x2 : Vec Ideal S1024x1024 .f32) :
    out0_3 (F := Ideal) x0 x1 x2 = k0_pay1 x0 x1 x2 := by
  unfold out0_3
  rw [View.canon_unit_zero zero_offsets]
  simp only [View.ld_unit_zero (S := S1024x128) zero_offsets, View.ld_unit_zero (S := S1024x1024) zero_offsets]

/-- The stored value at `(p, q)` from blocks that are rows `P…`, `Q…` and block `(P, Q)` of three whole arrays is entry
    `(P, Q)` of their weighted product. -/
theorem stored_entry (x0 x1 : Vec Ideal S1024x128 .f32) (x2 : Vec Ideal S1024x1024 .f32)
    (u : (⟨2, ![8192, 128]⟩ : Shape).Idx → EReal) (v : (⟨2, ![4096, 128]⟩ : Shape).Idx → EReal)
    (w : (⟨2, ![8192, 4096]⟩ : Shape).Idx → EReal) (p q : Fin 1024) (P : Fin 8192) (Q : Fin 4096)
    (h0 : ∀ k : Fin 128, x0 (ix2 p k) = u (ix2 P k)) (h1 : ∀ k : Fin 128, x1 (ix2 q k) = v (ix2 Q k))
    (h2 : x2 (ix2 p q) = w (ix2 P Q)) :
    k0_pay1 (F := Ideal) x0 x1 x2 (ix2 p q) = entry u v w P Q := by
  rw [stored_apply, h2]
  unfold entry
  exact congrArg (· * w (ix2 P Q)) (Finset.sum_congr rfl fun k _ => by rw [h0 k, h1 k])

/-- The printed index maps, decided over the 32 grid points: the row block follows the result's row index, the column
    block its column index, the weight block both; the result's block indices stay below 8 and 4. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block `(a, b)` of the result is some grid point's. -/
theorem index_onto : ∀ (a : Fin 8) (b : Fin 4), ∃ t : Fin cfg0.N, win0_3.index t = ![a.val, b.val] :=
  (by decide +kernel : ∀ (a : Fin 8) (b : Fin 4), ∃ t : Fin grid0.N, win0_3.index t = ![a.val, b.val])

/-- The row block at point `t` is rows `1024 · index …` of the first argument as the region finds it. -/
theorem rows_apply (c : Dev nD) (t : Fin cfg0.N) (p : Fin 1024) (k : Fin 128) (P : Fin 8192)
    (hP : P.val = win0_0.index t (0 : Fin 2) * 1024 + p.val) (h1 : win0_0.index t (1 : Fin 2) = 0) :
    (iblk m c 0 t : Vec Ideal S1024x128 .f32) (ix2 p k) = (V m c main_arg2 : S8192x128.Idx → EReal) (ix2 P k) := by
  unfold iblk
  rw [View.read_apply]
  show V m c main_arg2 _ = V m c main_arg2 _
  refine congrArg (V m c main_arg2) (funext fun a => Fin.ext ?_)
  match a with
  | ⟨0, _⟩ => show win0_0.index t (0 : Fin 2) * 1024 + 1 * p.val = P.val; omega
  | ⟨1, _⟩ => show win0_0.index t (1 : Fin 2) * 128 + 1 * k.val = k.val; omega

/-- The column block at point `t` is rows `1024 · index …` of the second argument. -/
theorem cols_apply (c : Dev nD) (t : Fin cfg0.N) (q : Fin 1024) (k : Fin 128) (Q : Fin 4096)
    (hQ : Q.val = win0_1.index t (0 : Fin 2) * 1024 + q.val) (h1 : win0_1.index t (1 : Fin 2) = 0) :
    (iblk m c 1 t : Vec Ideal S1024x128 .f32) (ix2 q k) = (V m c main_arg3 : S4096x128.Idx → EReal) (ix2 Q k) := by
  unfold iblk
  rw [View.read_apply]
  show V m c main_arg3 _ = V m c main_arg3 _
  refine congrArg (V m c main_arg3) (funext fun a => Fin.ext ?_)
  match a with
  | ⟨0, _⟩ => show win0_1.index t (0 : Fin 2) * 1024 + 1 * q.val = Q.val; omega
  | ⟨1, _⟩ => show win0_1.index t (1 : Fin 2) * 128 + 1 * k.val = k.val; omega

/-- The weight block at point `t` is block `(index 0, index 1)` of the weight array. -/
theorem weights_apply (c : Dev nD) (t : Fin cfg0.N) (p q : Fin 1024) (P : Fin 8192) (Q : Fin 4096)
    (hP : P.val = win0_2.index t (0 : Fin 2) * 1024 + p.val) (hQ : Q.val = win0_2.index t (1 : Fin 2) * 1024 + q.val) :
    (iblk m c 2 t : Vec Ideal S1024x1024 .f32) (ix2 p q) = (V m c main_v19 : S8192x4096.Idx → EReal) (ix2 P Q) := by
  unfold iblk
  rw [View.read_apply]
  show V m c main_v19 _ = V m c main_v19 _
  refine congrArg (V m c main_v19) (funext fun a => Fin.ext ?_)
  match a with
  | ⟨0, _⟩ => show win0_2.index t (0 : Fin 2) * 1024 + 1 * p.val = P.val; omega
  | ⟨1, _⟩ => show win0_2.index t (1 : Fin 2) * 1024 + 1 * q.val = Q.val; omega

/-- WHAT POINT `t` WRITES BACK is block `t` of the weighted product of the arrays as the region finds them. -/
theorem flushed_eq (c : Dev nD) (t : Fin cfg0.N) :
    (dats m 0 c).flushed 3 t = ((cfg0.win 3).blk t).view.read (Elt Ideal)
      (weighted (V m c main_arg2) (V m c main_arg3) (V m c main_v19)) := by
  show (cfg0.win 3).cut (grid0.coords t) ((dats m 0 c).after 3 t) = _
  rw [after0_3, out_eq]
  obtain ⟨e0, e1, e2, e3, e4, e5, e6, e7⟩ := index_maps t
  funext j
  have hj0 : (j 0).val < 1024 := (j 0).isLt
  have hj1 : (j 1).val < 1024 := (j 1).isLt
  have hP : win0_3.index t (0 : Fin 2) * 1024 + (j 0).val < 8192 := by omega
  have hQ : win0_3.index t (1 : Fin 2) * 1024 + (j 1).val < 4096 := by omega
  have hx : (cfg0.win 3).xinj (grid0.coords t) j = ix2 (⟨(j 0).val, hj0⟩ : Fin 1024) (⟨(j 1).val, hj1⟩ : Fin 1024) :=
    funext fun a => Fin.ext (by
      match a with
      | ⟨0, _⟩ => rfl
      | ⟨1, _⟩ => rfl)
  have hy : ((cfg0.win 3).blk t).view.emb j
      = ix2 (⟨win0_3.index t (0 : Fin 2) * 1024 + (j 0).val, hP⟩ : Fin 8192) (⟨win0_3.index t (1 : Fin 2) * 1024 + (j 1).val, hQ⟩ : Fin 4096) :=
    funext fun a => Fin.ext (by
      match a with
      | ⟨0, _⟩ => show win0_3.index t (0 : Fin 2) * 1024 + 1 * (j 0).val = win0_3.index t (0 : Fin 2) * 1024 + (j 0).val; omega
      | ⟨1, _⟩ => show win0_3.index t (1 : Fin 2) * 1024 + 1 * (j 1).val = win0_3.index t (1 : Fin 2) * 1024 + (j 1).val; omega)
  rw [View.read_apply]
  show k0_pay1 (F := Ideal) (iblk m c 0 t) (iblk m c 1 t) (iblk m c 2 t) ((cfg0.win 3).xinj (grid0.coords t) j)
    = weighted (V m c main_arg2) (V m c main_arg3) (V m c main_v19) (((cfg0.win 3).blk t).view.emb j)
  rw [hx, hy, weighted_ix2]
  exact stored_entry (iblk m c 0 t) (iblk m c 1 t) (iblk m c 2 t) (V m c main_arg2) (V m c main_arg3) (V m c main_v19)
    ⟨(j 0).val, hj0⟩ ⟨(j 1).val, hj1⟩ ⟨_, hP⟩ ⟨_, hQ⟩
    (fun k => rows_apply m c t ⟨(j 0).val, hj0⟩ k ⟨_, hP⟩
      (by show win0_3.index t (0 : Fin 2) * 1024 + (j 0).val = win0_0.index t (0 : Fin 2) * 1024 + (j 0).val; omega) e1)
    (fun k => cols_apply m c t ⟨(j 1).val, hj1⟩ k ⟨_, hQ⟩
      (by show win0_3.index t (1 : Fin 2) * 1024 + (j 1).val = win0_1.index t (0 : Fin 2) * 1024 + (j 1).val; omega) e3)
    (weights_apply m c t ⟨(j 0).val, hj0⟩ ⟨(j 1).val, hj1⟩ ⟨_, hP⟩ ⟨_, hQ⟩
      (by show win0_3.index t (0 : Fin 2) * 1024 + (j 0).val = win0_2.index t (0 : Fin 2) * 1024 + (j 0).val; omega)
      (by show win0_3.index t (1 : Fin 2) * 1024 + (j 1).val = win0_2.index t (1 : Fin 2) * 1024 + (j 1).val; omega))

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v35).slice (win0_3.rect t)).set ↔ _
  rw [View.set_slice_whole, Rect.mem_set_unit]
  exact Iff.rfl

/-- The 32 blocks tile the result: index `(r, s)` lies in the block of the point with block indices
    `(r / 1024, s / 1024)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the run: the weighted product of the arrays as the region finds them. -/
theorem result_array (c : Dev nD) :
    (dats m 0 c).arrAt 3 cfg0.N = weighted (V m c main_arg2) (V m c main_arg3) (V m c main_v19) :=
  (dats m 0 c).arrAt_eq_of_cover 3 (weighted (V m c main_arg2) (V m c main_arg3) (V m c main_v19))
    (fun t _ => flushed_eq m c t) covered

end Cert.KernelIdeal.Hand

end
-- ==== Proof.HostChain.lean ====
/-
  The host operations both programs share, as functions of the index and rating arrays. The 2 × 500000 index array gives a
  row index and a column index per rating; an index below zero is taken from the end of its axis (the axis length is
  added), the two are paired, and a scatter-add into a zero 8192 × 4096 array sums, at each pair, either the constant one
  (`counts`: how many ratings fall on each entry) or the rating itself (`sums`). Nothing here is opened by the proof: both
  programs apply these same operations, and the certificate only needs them to be the same functions.
-/
import proofs.«142145_j89902255440462_1_alg».proof.Proof.Gen.KernelIdeal

noncomputable section

namespace Cert.KernelIdeal.Hand

open Cert.KernelIdeal Cert.KernelIdeal.Gen Idealize.ShloMosaic

variable {F : FTy → Type} [FloatOps F]

/-- Row `r` (0 or 1) of the index array, as a vector of 500000 indices. -/
def indexRow (r : Nat) (h : S2x500000.Slices ![r, 0] S1x500000) (x0 : (⟨S2x500000, .i32⟩ : BufTy).Contents (Elt F)) :
    (⟨S500000, .i32⟩ : BufTy).Contents (Elt F) :=
  shapeCast _ (extractStridedSlice S1x500000 ![r, 0] x0 h) Facts₀.shapeCasts_S1x500000_S500000

/-- An index below zero counts from the end of an axis of length `len`. -/
def fromEnd (len : BitVec 32) (x : (⟨S500000, .i32⟩ : BufTy).Contents (Elt F)) : (⟨S500000, .i32⟩ : BufTy).Contents (Elt F) :=
  select (cmpi .slt x (broadcastInDim S500000 ![] Facts₀.bcast_S_S500000 (constantI S_ 32 0#32)))
    (addi x (broadcastInDim S500000 ![] Facts₀.bcast_S_S500000 (constantI S_ 32 len))) x

/-- The (row, column) pairs the scatter writes at. -/
def indexPairs (x0 : (⟨S2x500000, .i32⟩ : BufTy).Contents (Elt F)) : (⟨S500000x2, .i32⟩ : BufTy).Contents (Elt F) :=
  concatenate S500000x2 1
    [⟨S500000x1, broadcastInDim S500000x1 ![0] Facts₀.bcast_S500000_S500000x1_0
        (fromEnd 8192#32 (indexRow 0 Facts₀.slices_S2x500000_S1x500000_0_0 x0))⟩,
     ⟨S500000x1, broadcastInDim S500000x1 ![0] Facts₀.bcast_S500000_S500000x1_0
        (fromEnd 4096#32 (indexRow 1 Facts₀.slices_S2x500000_S1x500000_1_0 x0))⟩]
    Facts₀.concatenates_S500000x1_S500000x1_S500000x2_d1

/-- The zero 8192 × 4096 array the scatters start from. -/
def zeros : (⟨S8192x4096, .f32⟩ : BufTy).Contents (Elt F) :=
  broadcastInDim S8192x4096 ![] Facts₀.bcast_S_S8192x4096 (constant S_ .f32 0x00000000#32)

/-- How many ratings fall on each entry: the scatter-add of ones. -/
def counts (x0 : (⟨S2x500000, .i32⟩ : BufTy).Contents (Elt F)) : (⟨S8192x4096, .f32⟩ : BufTy).Contents (Elt F) :=
  Host.scatterAdd scatter_S8192x4096_S500000x2_S500000_n_01_01_1 zeros (indexPairs x0)
    (broadcastInDim S500000 ![] Facts₀.bcast_S_S500000 (constant S_ .f32 0x3F800000#32))

/-- The ratings summed on each entry: the scatter-add of the rating array. -/
def sums (x0 : (⟨S2x500000, .i32⟩ : BufTy).Contents (Elt F)) (x1 : (⟨S500000, .f32⟩ : BufTy).Contents (Elt F)) :
    (⟨S8192x4096, .f32⟩ : BufTy).Contents (Elt F) :=
  Host.scatterAdd scatter_S8192x4096_S500000x2_S500000_n_01_01_1 zeros (indexPairs x0) x1

end Cert.KernelIdeal.Hand

end
-- ==== Proof.KernelValue.lean ====
/-
  The kernel program's run, read as values. Its first result is the weighted product (Blocks) of the two embedding arrays
  as launched — no host operation writes them — with the weight array the region finds, which is `counts` of the index
  array; its second result, written by the host before the region and untouched after, is `sums` of the index and rating
  arrays; its third is the constant the host writes after the region. The four arguments end as launched.
-/
import proofs.«142145_j89902255440462_1_alg».proof.Proof.Blocks
import proofs.«142145_j89902255440462_1_alg».proof.Proof.HostChain
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.MaskedProduct Idealize.ShloMosaic.StableHlo

variable (m : (ℓ : Loc nD τ sig) → Buf (Elt Ideal) ℓ) (ρ : Dev nD → PrngReg)

set_option maxRecDepth 8192 in
set_option maxHeartbeats 2000000 in
/-- The weight array the region finds is `counts` of the index array as launched. -/
theorem weights_eq (c : Dev nD) :
    (V m c main_v19 : S8192x4096.Idx → EReal) = counts (F := Ideal) (m ((c.tc : Thread nD τ).loc main_arg0)) := by
  show StableHlo.after hostOps0 (fun b => m (c, b)) (Proc.devRef .tc main_v19) = _
  after_results_simp <;> rfl

set_option maxRecDepth 8192 in
set_option maxHeartbeats 2000000 in
/-- The second result as the region finds it is `sums` of the index and rating arrays as launched. -/
theorem label_eq (c : Dev nD) :
    (V m c main_v34 : S8192x4096.Idx → EReal)
      = sums (F := Ideal) (m ((c.tc : Thread nD τ).loc main_arg0)) (m ((c.tc : Thread nD τ).loc main_arg1)) := by
  show StableHlo.after hostOps0 (fun b => m (c, b)) (Proc.devRef .tc main_v34) = _
  after_results_simp <;> rfl

/-- The one host operation after the region writes the constant only: the second result ends as the region found it. -/
theorem label_end (c : Dev nD) :
    Pipeline.afterTail₀ cfgs (dats m) 0 (V0 m) [hostOps1] c main_v34
      = sums (F := Ideal) (m ((c.tc : Thread nD τ).loc main_arg0)) (m ((c.tc : Thread nD τ).loc main_arg1)) := by
  unfold Pipeline.afterTail₀
  rw [StableHlo.after_of_forall_not_mem (b := Proc.devRef .tc main_v34) _ _ (List.forall_iff_forall_mem.mp (by
      simp only [hostOps1, List.flatten_cons, List.flatten_nil, List.append_nil, List.cons_append,
        List.nil_append, List.Forall, StableHlo.nullary_writes, Finset.mem_singleton]
      repeat' apply And.intro
      all_goals exact StableHlo.devRef_ne_of_ne (by decide))),
    Pipeline.withArrays_of_ne _ c (V0 m c) _ main_v34 (by exact (by decide : ∀ w, Pipeline.arrRef spec0 w ≠ main_v34))]
  exact label_eq m c

/-- The third result is the constant the host writes after the region. -/
theorem ratio_end (c : Dev nD) :
    Pipeline.afterTail₀ cfgs (dats m) 0 (V0 m) [hostOps1] c main_cst_9 = constant (F := Ideal) S_ .f32 0x428637BD#32 := by
  unfold Pipeline.afterTail₀
  show StableHlo.after hostOps1 _ (Proc.devRef .tc main_cst_9) = _
  after_results

/-- THE RUN, READ: every weakly fair execution of the kernel program ends with its three results at the weighted product,
    `sums` and the constant, and its arguments as launched. -/
theorem run : θ_run defs (onTc (τ := τ) (main (F := Ideal))) ⟨m, fun _ => 0, ρ⟩ fun r => ∀ c : Dev nD,
      r.2.mem ((c.tc : Thread nD τ).loc main_v35)
        = weighted (m ((c.tc : Thread nD τ).loc main_arg2)) (m ((c.tc : Thread nD τ).loc main_arg3))
            (counts (F := Ideal) (m ((c.tc : Thread nD τ).loc main_arg0)))
      ∧ r.2.mem ((c.tc : Thread nD τ).loc main_v34)
        = sums (F := Ideal) (m ((c.tc : Thread nD τ).loc main_arg0)) (m ((c.tc : Thread nD τ).loc main_arg1))
      ∧ r.2.mem ((c.tc : Thread nD τ).loc main_cst_9) = constant (F := Ideal) S_ .f32 0x428637BD#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).1 3).trans ((result_array m c).trans (by rw [V_main_arg2 m c, V_main_arg3 m c, weights_eq m c])),
      ((h c).2 main_v34 (Pipeline.mem_restRefs_of main_v34 (by decide) (by decide))).trans (label_end m c),
      ((h c).2 main_cst_9 (Pipeline.mem_restRefs_of main_cst_9 (by decide) (by decide))).trans (ratio_end m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Hand

end
-- ==== Proof.ReferenceValue.lean ====
/-
  The reference program's first result, index by index: the product of `counts` of the index array with the whole
  matrix product `x2 · x3ᵀ` (a transposition of `x3`, then a contraction over the shared axis of length 128) is the weighted
  product of MaskedProduct with the weights `counts` — multiplication on the extended reals commutes, and the transposed
  operand at `(k, q)` is `x3` at `(q, k)`. The reference's index chain, its zero array and its two scatter-adds are the
  kernel program's, operation for operation, so its `counts` and `sums` are the same functions.
-/
import proofs.«142145_j89902255440462_1_alg».proof.Proof.Gen.ReferenceIdeal.Read
import proofs.«142145_j89902255440462_1_alg».proof.Proof.MaskedProduct
import proofs.«142145_j89902255440462_1_alg».proof.Proof.HostChain

noncomputable section

namespace Cert.ReferenceIdeal.Hand

open Cert.ReferenceIdeal Cert.ReferenceIdeal.Gen Cert.ReferenceIdeal.Read Idealize.ShloMosaic Idealize.ShloMosaic.ValueIdx
  Cert.MaskedProduct

/-- The reference's scatter-add of ones is `counts`. -/
theorem counts_eq (x0 : (⟨S2x500000, .i32⟩ : BufTy).Contents (Elt Ideal)) :
    val_main_v36 (F := Ideal) x0 = Cert.KernelIdeal.Hand.counts (F := Ideal) x0 := rfl

/-- The reference's scatter-add of the ratings is `sums`. -/
theorem sums_eq (x0 : (⟨S2x500000, .i32⟩ : BufTy).Contents (Elt Ideal)) (x1 : (⟨S500000, .f32⟩ : BufTy).Contents (Elt Ideal)) :
    val_main_v20 (F := Ideal) x0 x1 = Cert.KernelIdeal.Hand.sums (F := Ideal) x0 x1 := rfl

/-- The reference's first result is the weighted product with weights `counts`. -/
theorem product_eq (x0 : (⟨S2x500000, .i32⟩ : BufTy).Contents (Elt Ideal)) (x2 : (⟨S8192x128, .f32⟩ : BufTy).Contents (Elt Ideal))
    (x3 : (⟨S4096x128, .f32⟩ : BufTy).Contents (Elt Ideal)) :
    val_main_v37 (F := Ideal) x0 x2 x3 = weighted x2 x3 (Cert.KernelIdeal.Hand.counts (F := Ideal) x0) := by
  funext i
  obtain ⟨p, q, rfl⟩ : ∃ (p : Fin 8192) (q : Fin 4096), i = ix2 p q := ⟨i 0, i 1, eq_ix2 i⟩
  rw [val_main_v37_apply, val_main_v1_apply, weighted_ix2, counts_eq]
  unfold entry
  rw [Ideal.mulf_def, mul_comm]
  refine congrArg (· * Cert.KernelIdeal.Hand.counts (F := Ideal) x0 (ix2 p q)) (Finset.sum_congr rfl fun k _ => ?_)
  rw [val_main_v0_apply]
  have e1 : lidx_main_v1 (ix2 p q) k = ix2 p k := funext fun a => Fin.ext (by
    match a with
    | ⟨0, _⟩ => rfl
    | ⟨1, _⟩ => rfl)
  have e2 : idx_main_v0 (ridx_main_v1 (ix2 p q) k) = ix2 q k := funext fun a => Fin.ext (by
    match a with
    | ⟨0, _⟩ => rfl
    | ⟨1, _⟩ => rfl)
  rw [e1, e2]

end Cert.ReferenceIdeal.Hand

end
-- ==== Proof.lean ====
/-
  The claims. Both programs return three results: a matrix of predicted scores masked by how many ratings fall on each
  entry, the ratings summed on each entry, and a constant.
  * The kernel program computes the first in 8 × 4 blocks — per block the product of 1024 rows of each embedding array over
    the shared axis of length 128, times the block of `counts` — and the reference as `counts` times ONE whole product; on
    the extended reals both are, entry by entry, `(∑ k, u[p, k] · v[q, k]) · counts[p, q]` (MaskedProduct; Blocks and
    KernelValue for the kernel, ReferenceValue for the reference): only the commutativity of the product is used, so
    no input needs to be finite.
  * The second and third results are written by the same host operations in both programs (HostChain).
  * Each program's arguments end as launched: the two kernel programs' by their generated frames, the reference's by its
    generated run. The idealization rewrote no operation, so `preserves` states nothing.
-/
import proofs.«142145_j89902255440462_1_alg».proof.Defs
import proofs.«142145_j89902255440462_1_alg».proof.Proof.Gen.Kernel
import proofs.«142145_j89902255440462_1_alg».proof.Proof.Gen.Kernel.Skeleton
import proofs.«142145_j89902255440462_1_alg».proof.Proof.Gen.Kernel.Launch
import proofs.«142145_j89902255440462_1_alg».proof.Proof.Gen.Kernel.Points
import proofs.«142145_j89902255440462_1_alg».proof.Proof.Gen.Kernel.Frame
import proofs.«142145_j89902255440462_1_alg».proof.Proof.Gen.KernelIdeal
import proofs.«142145_j89902255440462_1_alg».proof.Proof.Gen.KernelIdeal.Skeleton
import proofs.«142145_j89902255440462_1_alg».proof.Proof.Gen.KernelIdeal.Launch
import proofs.«142145_j89902255440462_1_alg».proof.Proof.Gen.KernelIdeal.Points
import proofs.«142145_j89902255440462_1_alg».proof.Proof.Gen.KernelIdeal.Frame
import proofs.«142145_j89902255440462_1_alg».proof.Proof.Gen.ReferenceIdeal
import proofs.«142145_j89902255440462_1_alg».proof.Proof.Gen.ReferenceIdeal.Run
import proofs.«142145_j89902255440462_1_alg».proof.Proof.Gen.ReferenceIdeal.Read
import proofs.«142145_j89902255440462_1_alg».proof.Proof.Gen.Pre_finite_inputs
import proofs.«142145_j89902255440462_1_alg».proof.Proof.KernelValue
import proofs.«142145_j89902255440462_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the four arguments both programs end with the same three results: the weighted product
    with weights `counts`, `sums`, and the constant. -/
theorem algebraic : Cert.algebraic_KernelIdeal_ReferenceIdeal := by
  intro m ρ m' ρ' _ hagree
  refine ⟨_, _, _, Cert.KernelIdeal.Hand.run m ρ, ?_⟩
  refine (θ_run Cert.ReferenceIdeal.defs _ _).mono (fun _ h c => ?_) (Cert.ReferenceIdeal.Value.run (F := Ideal) m' ρ')
  obtain ⟨h0, h1, h2, h3⟩ := hagree c
  refine ⟨(h c).1.trans ?_, (h c).2.1.trans ?_, (h c).2.2.1, (h c).2.2.2⟩
  · rw [Cert.ReferenceIdeal.Read.val_main_v37_eq, Cert.ReferenceIdeal.Hand.product_eq, h0, h2, h3]
  · rw [Cert.ReferenceIdeal.Read.val_main_v20_eq, Cert.ReferenceIdeal.Hand.sums_eq, h0, h1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
